-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x256 : Shape := ⟨3, ![8, 128, 256]⟩
abbrev S256x256 : Shape := ⟨2, ![256, 256]⟩
abbrev S256 : Shape := ⟨1, ![256]⟩
abbrev S_ : Shape := ⟨0, ![]⟩

class Facts : Prop where
  bcast_S_S8x128x256 : S_.BroadcastsInDim S8x128x256 (![] : Fin 0 → Fin S8x128x256.rank)
  reducesTo_S8x128x256_S_d0_1_2 : S8x128x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x128x256 .f32) (main_arg1 : FVec F S256x256 .f32) (main_arg2 : FVec F S256 .f32) (main_arg3 : FVec F S256x256 .f32) (main_arg4 : FVec F S256 .f32) (main_arg5 : FVec F S256 .f32) (main_arg6 : FVec F S256 .f32) : IVec S_ 1 :=
  let main_v0 : FVec F S8x128x256 .f32 := Host.absf main_arg0
  let main_cst : FVec F S_ .f32 := constant S_ .f32 0x7F800000#32
  let main_v1 : FVec F S8x128x256 .f32 := broadcastInDim S8x128x256 ![] bcast_S_S8x128x256 main_cst
  let main_v2 : IVec S8x128x256 1 := cmpf .olt main_v0 main_v1
  let main_c : IVec S_ 1 := constantI S_ 1 1#1
  let main_v3 : IVec S_ 1 := (fun x v => Host.reduce IntOp.andi x v reducesTo_S8x128x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8x128x256 : Shape := ⟨3, ![8, 128, 256]⟩
abbrev S256x256 : Shape := ⟨2, ![256, 256]⟩
abbrev S256 : Shape := ⟨1, ![256]⟩
abbrev S1x256 : Shape := ⟨2, ![1, 256]⟩
abbrev S1024x256 : Shape := ⟨2, ![1024, 256]⟩
abbrev S8x16384x256 : Shape := ⟨3, ![8, 16384, 256]⟩
abbrev S1x128x256 : Shape := ⟨3, ![1, 128, 256]⟩
abbrev S1x16384x256 : Shape := ⟨3, ![1, 16384, 256]⟩
abbrev S128x256 : Shape := ⟨2, ![128, 256]⟩
abbrev S128x1x256 : Shape := ⟨3, ![128, 1, 256]⟩
abbrev S128x128x256 : Shape := ⟨3, ![128, 128, 256]⟩
abbrev S16384x256 : Shape := ⟨2, ![16384, 256]⟩

abbrev nBuf : Space → Nat
  | .hbm => 13
  | .vmem => 12
  | .smem => 0
  | _ => 0

abbrev bufTy : (tb : Table) → Fin (tcTables nBuf tb) → BufTy
  | .hbm, ⟨0, _⟩ => ⟨S8x128x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S8x128x256, .f32⟩
  | .hbm, ⟨12, _⟩ => ⟨S8x16384x256, .f32⟩
  | .local _ .vmem, ⟨0, _⟩ => ⟨S8x128x256, .f32⟩
  | .local _ .vmem, ⟨1, _⟩ => ⟨S256x256, .f32⟩
  | .local _ .vmem, ⟨2, _⟩ => ⟨S1x256, .f32⟩
  | .local _ .vmem, ⟨3, _⟩ => ⟨S256x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S8x128x256, .f32⟩
  | .local _ .vmem, ⟨8, _⟩ => ⟨S1x128x256, .f32⟩
  | .local _ .vmem, ⟨9, _⟩ => ⟨S1x128x256, .f32⟩
  | .local _ .vmem, ⟨10, _⟩ => ⟨S1x16384x256, .f32⟩
  | .local _ .vmem, ⟨11, _⟩ => ⟨S1x16384x256, .f32⟩
  | _, _ => ⟨S8x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x16384x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S256_S1x256 : S256.ShapeCasts S1x256
  inb_S8x128x256_S8x128x256_0_0_0 : ∀ a, (![0, 0, 0] : Fin 3 → Nat) a + S8x128x256.size a ≤ S8x128x256.size a
  h_S8x128x256 : 0 < S8x128x256.numel
  shapeCasts_S8x128x256_S1024x256 : S8x128x256.ShapeCasts S1024x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S256 : S1024x256.Reduces [0] S256
  shapeCasts_S1024x256_S8x128x256 : S1024x256.ShapeCasts S8x128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S128x1x256 : S128x256.ShapeCasts S128x1x256
  shapeCasts_S128x1x256_S128x1x256 : S128x1x256.ShapeCasts S128x1x256
  broadcasts_S128x1x256_S128x128x256 : S128x1x256.Broadcasts S128x128x256
  shapeCasts_S128x128x256_S16384x256 : S128x128x256.ShapeCasts S16384x256
  inb_S1x16384x256_S1x16384x256_0_0_0 : ∀ a, (![0, 0, 0] : Fin 3 → Nat) a + S1x16384x256.size a ≤ S1x16384x256.size a
  h_S1x16384x256 : 0 < S1x16384x256.numel
  shapeCasts_S1x16384x256_S16384x256 : S1x16384x256.ShapeCasts S16384x256
  shapeCasts_S16384x256_S1x16384x256 : S16384x256.ShapeCasts S1x16384x256
  dot_S1024x256_S256x256_S1024x256_1_1_0_0_n_n_wf : DotDims.WF S1024x256 S256x256 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S8x128x256.size a
  hwx0_0 : ∀ i : grid0.Coords, EltTy.bits .f32 = 32 ∨ (Rect.block (s := S8x128x256) S8x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128x256.size a ≤ S8x128x256.size a
  hwx0_7 : ∀ i : grid0.Coords, EltTy.bits .f32 = 32 ∨ (Rect.block (s := S8x128x256) S8x128x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x256.size a ≤ S8x128x256.size a
  hwx1_0 : ∀ i : grid1.Coords, EltTy.bits .f32 = 32 ∨ (Rect.block (s := S8x128x256) S1x128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16384x256.size a ≤ S8x16384x256.size a
  hwx1_1 : ∀ i : grid1.Coords, EltTy.bits .f32 = 32 ∨ (Rect.block (s := S8x16384x256) S1x16384x256.size (cc1_transform_1 i) (hinb1_1 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf

abbrev win0_0 : Pipeline.Window sig grid0 :=
  Pipeline.Window.ofSpec (Memref.whole main_arg0) S8x128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S8x128x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S1x128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x16384x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x128x256 : Shape := ⟨3, ![8, 128, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x128x1x256 : Shape := ⟨4, ![8, 128, 1, 256]⟩
abbrev S8x128x128x256 : Shape := ⟨4, ![8, 128, 128, 256]⟩
abbrev S8x16384x256 : Shape := ⟨3, ![8, 16384, 256]⟩

abbrev nBuf : Space → Nat
  | .hbm => 48
  | .vmem => 0
  | .smem => 0
  | _ => 0

abbrev bufTy : (tb : Table) → Fin (tcTables nBuf tb) → BufTy
  | .hbm, ⟨0, _⟩ => ⟨S8x128x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S8x128x256, .f32⟩
  | .hbm, ⟨8, _⟩ => ⟨S1x1x256, .f32⟩
  | .hbm, ⟨9, _⟩ => ⟨S8x128x256, .f32⟩
  | .hbm, ⟨10, _⟩ => ⟨S8x128x256, .f32⟩
  | .hbm, ⟨11, _⟩ => ⟨S8x128x256, .f32⟩
  | .hbm, ⟨12, _⟩ => ⟨S1x1x256, .f32⟩
  | .hbm, ⟨13, _⟩ => ⟨S8x128x256, .f32⟩
  | .hbm, ⟨14, _⟩ => ⟨S8x128x256, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S1x1x256, .f32⟩
  | .hbm, ⟨21, _⟩ => ⟨S8x128x256, .f32⟩
  | .hbm, ⟨22, _⟩ => ⟨S8x128x256, .f32⟩
  | .hbm, ⟨23, _⟩ => ⟨S8x128x256, .f32⟩
  | .hbm, ⟨24, _⟩ => ⟨S_, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S1x1x256, .f32⟩
  | .hbm, ⟨30, _⟩ => ⟨S8x128x256, .f32⟩
  | .hbm, ⟨31, _⟩ => ⟨S8x128x256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S1x1x256, .f32⟩
  | .hbm, ⟨37, _⟩ => ⟨S8x128x256, .f32⟩
  | .hbm, ⟨38, _⟩ => ⟨S8x128x256, .f32⟩
  | .hbm, ⟨39, _⟩ => ⟨S1x1x256, .f32⟩
  | .hbm, ⟨40, _⟩ => ⟨S8x128x256, .f32⟩
  | .hbm, ⟨41, _⟩ => ⟨S8x128x256, .f32⟩
  | .hbm, ⟨42, _⟩ => ⟨S1x1x256, .f32⟩
  | .hbm, ⟨43, _⟩ => ⟨S8x128x256, .f32⟩
  | .hbm, ⟨44, _⟩ => ⟨S8x128x256, .f32⟩
  | .hbm, ⟨45, _⟩ => ⟨S8x128x1x256, .f32⟩
  | .hbm, ⟨46, _⟩ => ⟨S8x128x128x256, .f32⟩
  | .hbm, ⟨47, _⟩ => ⟨S8x16384x256, .f32⟩
  | _, _ => ⟨S8x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x128x256_0_1_2 : S1x1x256.BroadcastsInDim S8x128x256 (![0, 1, 2] : Fin 3 → Fin S8x128x256.rank)
  reducesTo_S8x128x256_S256_d0_1 : S8x128x256.ReducesTo [0, 1] S256
  h_S_ : 0 < S_.numel
  bcast_S_S256 : S_.BroadcastsInDim S256 (![] : Fin 0 → Fin S256.rank)
  bcast_S8x128x256_S8x128x1x256_0_1_3 : S8x128x256.BroadcastsInDim S8x128x1x256 (![0, 1, 3] : Fin 3 → Fin S8x128x1x256.rank)
  bcast_S8x128x1x256_S8x128x128x256_0_1_2_3 : S8x128x1x256.BroadcastsInDim S8x128x128x256 (![0, 1, 2, 3] : Fin 4 → Fin S8x128x128x256.rank)
  shapeCasts_S8x128x128x256_S8x16384x256 : S8x128x128x256.ShapeCasts S8x16384x256
  dot_S8x128x256_S256x256_S8x128x256_2_1_01_0_n_n_wf : DotDims.WF S8x128x256 S256x256 S8x128x256 [2] [1] [0, 1] [0] [] []

variable [Facts₀]

def dot_S8x128x256_S256x256_S8x128x256_2_1_01_0_n_n : DotDims S8x128x256 S256x256 S8x128x256 where
  lhsContracting := [2]
  rhsContracting := [1]
  lhsNonContracting := [0, 1]
  rhsNonContracting := [0]
  lhsBatch := []
  rhsBatch := []
  wf := dot_S8x128x256_S256x256_S8x128x256_2_1_01_0_n_n_wf

class Facts : Prop extends Facts₀ where

variable [Facts]
-- ==== Proof.Spec.lean ====
/-
  Edge features for every pair of nodes: two linear layers on the node features, a normalisation over the whole
  batch, and one copy of each node's row for each of its 128 partners — the function that both programs compute,
  written entry by entry on the extended reals.

  The node features x have shape [8, 128, 256]: 8 graphs, 128 nodes each, 256 channels.  A linear layer sends the
  row of node (p, n) to its products with the rows of a [256, 256] weight matrix, plus a bias:
      hidden (p, n, d) = sum over k of x (p, n, k) * Wv (d, k)  +  bv d
      edge   (p, n, d) = sum over k of hidden (p, n, k) * We (d, k)  +  be d.
  The normalisation is per channel d over all 1024 = 8 * 128 rows, row r being node r % 128 of graph r / 128:
      mean d = (sum over r of edge (r, d)) / 1024
      var  d = (sum over r of (edge (r, d) - mean d) ^ 2) / 1024
      normed (p, n, d) = (edge (p, n, d) - mean d) * rsqrt (var d + eps) * gamma d + beta d.
  The result has shape [8, 16384, 256]; its row i * 128 + j of graph p is the normalised row of node i, for every
  partner j:  pairs (p, s, d) = normed (p, s / 128, d).

  The two constants are kept as the 32-bit words both programs write (1024 and the variance floor); the same word
  on both sides is never evaluated.
-/
import Idealize.ShloMosaic.PureOps.Ideal
import Idealize.ShloMosaic.Lib.ValueIdx

noncomputable section

namespace Cert.EdgeNorm

open Idealize.ShloMosaic Idealize.ShloMosaic.ValueIdx

/-- Node features, and every array of their shape: 8 graphs, 128 nodes, 256 channels. -/
abbrev Feat : Shape := ⟨3, ![8, 128, 256]⟩
/-- A weight matrix: one row of 256 input channels per output channel. -/
abbrev Wt : Shape := ⟨2, ![256, 256]⟩
/-- One value per channel. -/
abbrev Chan : Shape := ⟨1, ![256]⟩
/-- The same held as a single row. -/
abbrev ChanRow : Shape := ⟨2, ![1, 256]⟩
/-- The result: for each graph, one row per ordered pair of nodes. -/
abbrev Pairs : Shape := ⟨3, ![8, 16384, 256]⟩

/-- The graph of row r among the 1024 rows. -/
def rowGraph (r : Fin 1024) : Fin 8 := ⟨r.val / 128, by have := r.isLt; omega⟩
/-- The node of row r within its graph. -/
def rowNode (r : Fin 1024) : Fin 128 := ⟨r.val % 128, Nat.mod_lt _ (by decide)⟩

/-- A per-channel vector held as a single row, read back as a vector. -/
def ofRow (v : ChanRow.Idx → EReal) : Chan.Idx → EReal := fun j => v (ix2 (0 : Fin 1) (⟨(j 0).val, (j 0).isLt⟩ : Fin 256))

theorem ofRow_apply (v : ChanRow.Idx → EReal) (d : Fin 256) : ofRow v (ix1 d) = v (ix2 (0 : Fin 1) d) := rfl

/-- The word for 1024, the number of rows. -/
def count : EReal := Ideal.ofBits .f32 0x44800000#32
/-- The word for the floor added to the variance. -/
def eps : EReal := Ideal.ofBits .f32 0x3727C5AC#32

section
variable (x : Feat.Idx → EReal) (Wv : Wt.Idx → EReal) (bv : Chan.Idx → EReal) (We : Wt.Idx → EReal) (be : Chan.Idx → EReal)

/-- The first linear layer at node (p, n), channel d. -/
def hidden (p : Fin 8) (n : Fin 128) (d : Fin 256) : EReal :=
  (∑ k : Fin 256, x (ix3 p n k) * Wv (ix2 d k)) + bv (ix1 d)

/-- The second linear layer, on the first one's output. -/
def edge (p : Fin 8) (n : Fin 128) (d : Fin 256) : EReal :=
  (∑ k : Fin 256, hidden x Wv bv p n k * We (ix2 d k)) + be (ix1 d)

/-- The mean of channel d over all 1024 rows. -/
def mean (d : Fin 256) : EReal :=
  Ideal.div (∑ r : Fin 1024, edge x Wv bv We be (rowGraph r) (rowNode r) d) count

/-- An entry less its channel's mean. -/
def centred (p : Fin 8) (n : Fin 128) (d : Fin 256) : EReal :=
  edge x Wv bv We be p n d - mean x Wv bv We be d

/-- The mean square of the centred entries of channel d. -/
def var (d : Fin 256) : EReal :=
  Ideal.div (∑ r : Fin 1024, centred x Wv bv We be (rowGraph r) (rowNode r) d * centred x Wv bv We be (rowGraph r) (rowNode r) d) count

variable (gamma beta : Chan.Idx → EReal)

/-- The normalised entry, scaled and shifted per channel. -/
def normed (p : Fin 8) (n : Fin 128) (d : Fin 256) : EReal :=
  centred x Wv bv We be p n d * Ideal.rsqrt (var x Wv bv We be d + eps) * gamma (ix1 d) + beta (ix1 d)

/-- The normalised features as an array. -/
def normedArr : Feat.Idx → EReal := fun i =>
  normed x Wv bv We be gamma beta ⟨(i 0).val, (i 0).isLt⟩ ⟨(i 1).val, (i 1).isLt⟩ ⟨(i 2).val, (i 2).isLt⟩

theorem normedArr_apply (p : Fin 8) (n : Fin 128) (d : Fin 256) :
    normedArr x Wv bv We be gamma beta (ix3 p n d) = normed x Wv bv We be gamma beta p n d := rfl

end

/-- Row s of a graph's 16384 pair rows belongs to node s / 128. -/
def pairNode (s : Fin 16384) : Fin 128 := ⟨s.val / 128, by have := s.isLt; omega⟩

/-- The expansion of an array of node rows to pair rows: row s of graph p is the row of node s / 128. -/
def expand (a : Feat.Idx → EReal) : Pairs.Idx → EReal := fun i =>
  a (ix3 (⟨(i 0).val, (i 0).isLt⟩ : Fin 8) (pairNode ⟨(i 1).val, (i 1).isLt⟩) (⟨(i 2).val, (i 2).isLt⟩ : Fin 256))

theorem expand_apply (a : Feat.Idx → EReal) (p : Fin 8) (s : Fin 16384) (d : Fin 256) :
    expand a (ix3 p s d) = a (ix3 p (pairNode s) d) := rfl

/-- The whole function: the normalised node rows expanded to pair rows. -/
def pairs (x : Feat.Idx → EReal) (Wv : Wt.Idx → EReal) (bv : Chan.Idx → EReal) (We : Wt.Idx → EReal) (be gamma beta : Chan.Idx → EReal) :
    Pairs.Idx → EReal :=
  expand (normedArr x Wv bv We be gamma beta)

end Cert.EdgeNorm

end
-- ==== Proof.KernelRun.lean ====
/-
  The kernel's run, with its result named.

  The program is a stretch of host reshapes and then two pipelined regions.  Its buffers' contents at the end of
  each segment are a fold from the launch memory: after the reshapes, after the first region (its output array at
  what its one write-back leaves), after the second region (its output array at what its eight write-backs leave).
  Every weakly fair execution ends with every unscoped buffer at the last of these contents; read at the result
  buffer this names the result, and read at the seven arguments it gives them back as launched.
-/
import proofs.«177663_j90331752169540_1_alg».proof.Proof.Gen.KernelIdeal.Frame

set_option maxRecDepth 16384

noncomputable section

namespace Cert.EdgeNorm.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding the second
    region's exit contents and each argument its launch contents. -/
theorem run_result : θ_run defs (onTc (τ := τ) (main (F := F))) ⟨m, fun _ => 0, ρ⟩ (fun r => ∀ c : Dev nD,
      r.2.mem ((c.tc : Thread nD τ).loc main_v5) = W3 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.EdgeNorm.KernelRun

end
-- ==== Proof.ExpandBlocks.lean ====
/-
  The second region: from node rows to pair rows, block by block.

  The region's grid has eight points, one per graph.  At point t its input window holds graph t of the node
  array, a [1, 128, 256] block, and its output window is graph t of the result, a [1, 16384, 256] block, which
  the body fills with one copy of node row s / 128 at row s.  The eight output blocks are disjoint and together
  they are the whole result, so after the region the result array is the expansion of the node array the region
  found: entry (p, s, d) is the node array's entry (p, s / 128, d).
-/
import proofs.«177663_j90331752169540_1_alg».proof.Proof.Gen.KernelIdeal.Frame
import proofs.«177663_j90331752169540_1_alg».proof.Proof.Spec
import Idealize.ShloMosaic.Lib.Pipeline.Value
import Idealize.ShloMosaic.Lib.ValueIdx

set_option maxRecDepth 16384

noncomputable section

namespace Cert.EdgeNorm.ExpandBlocks

open Cert.KernelIdeal Cert.KernelIdeal.Gen Cert.EdgeNorm
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl

/-- Over the eight points: the block of either window at point t is graph t, and whole along the other two axes. -/
theorem index_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- What point t writes back is block t of the expansion of the node array. -/
theorem flushed_eq
    (hpay : ∀ (v0 : Vec Ideal S1x128x256 .f32) (u : Fin 1) (s : Fin 16384) (d : Fin 256),
      k1_pay1 (F := Ideal) v0 (ix3 u s d) = v0 (ix3 (0 : Fin 1) (pairNode s) d))
    (c : Dev nD) (t : Fin cfg1.N) :
    (dat1 V c).flushed 1 t = ((cfg1.win 1).blk t).view.read (Elt Ideal) (expand (V c main_v4)) := by
  show (cfg1.win 1).cut (grid1.coords t) ((dat1 V c).after 1 t) = _
  rw [after1_1]
  unfold out1_1
  rw [View.canon_unit_zero zeros3]
  simp only [View.ld_unit_zero (S := S1x128x256) zeros3]
  obtain ⟨e0, e1, e2, e3, e4, e5⟩ := index_facts t
  refine funext fun (j : S1x16384x256.Idx) => ?_
  obtain ⟨u, s, d, rfl⟩ : ∃ (u : Fin 1) (s : Fin 16384) (d : Fin 256), j = ix3 u s d := ⟨j 0, j 1, j 2, eq_ix3 j⟩
  show k1_pay1 (F := Ideal) (iblk1 V c 0 t) (ix3 u s d) = expand (V c main_v4) (((cfg1.win 1).blk t).view.emb (ix3 u s d))
  refine (hpay (iblk1 V c 0 t) u s d).trans ?_
  show V c main_v4 (((cfg1.win 0).blk t).view.emb (ix3 (0 : Fin 1) (pairNode s) d))
    = expand (V c main_v4) (((cfg1.win 1).blk t).view.emb (ix3 u s d))
  unfold expand
  refine congrArg (V c main_v4) (funext fun a => Fin.ext ?_)
  have hu : u.val = 0 := by have := u.isLt; omega
  match a with
  | ⟨0, _⟩ =>
    show win1_0.index t (0 : Fin 3) * 1 + 1 * 0 = win1_1.index t (0 : Fin 3) * 1 + 1 * u.val
    omega
  | ⟨1, _⟩ =>
    show win1_0.index t (1 : Fin 3) * 128 + 1 * (s.val / 128) = (win1_1.index t (1 : Fin 3) * 16384 + 1 * s.val) / 128
    omega
  | ⟨2, _⟩ =>
    show win1_0.index t (2 : Fin 3) * 256 + 1 * d.val = win1_1.index t (2 : Fin 3) * 256 + 1 * d.val
    omega

/-- An index of the result is in point t's block iff each coordinate is in the block's range on its axis. -/
theorem mem_blk (t : Fin cfg1.N) (i : S8x16384x256.Idx) :
    i ∈ ((cfg1.win 1).blk t).view.set ↔ ∀ a : Fin 3, win1_1.index t a * S1x16384x256.size a ≤ (i a).val
      ∧ (i a).val < win1_1.index t a * S1x16384x256.size a + S1x16384x256.size a := by
  show i ∈ ((View.whole main_v5).slice (win1_1.rect t)).set ↔ _
  rw [View.set_slice_whole, Rect.mem_set_unit]
  exact Iff.rfl

/-- Every index of the result is in the block of the point that is its graph. -/
theorem cover (i : S8x16384x256.Idx) :
    ∃ t : Fin cfg1.N, (cfg1.win 1).flush t = true ∧ i ∈ ((cfg1.win 1).blk t).view.set := by
  have h0 : (i 0).val < 8 := (i 0).isLt
  have h1 : (i 1).val < 16384 := (i 1).isLt
  have h2 : (i 2).val < 256 := (i 2).isLt
  have hN : (i 0).val < cfg1.N := by show (i 0).val < grid1.N; rw [N_1]; exact h0
  refine ⟨⟨(i 0).val, hN⟩, flush1_1 _, ?_⟩
  rw [mem_blk]
  obtain ⟨-, -, -, e3, e4, e5⟩ := index_facts ⟨(i 0).val, hN⟩
  have e3' : win1_1.index ⟨(i 0).val, hN⟩ (0 : Fin 3) = (i 0).val := e3
  intro a
  match a with
  | ⟨0, _⟩ =>
    show win1_1.index ⟨(i 0).val, hN⟩ (0 : Fin 3) * 1 ≤ (i 0).val ∧ (i 0).val < win1_1.index ⟨(i 0).val, hN⟩ (0 : Fin 3) * 1 + 1
    omega
  | ⟨1, _⟩ =>
    show win1_1.index ⟨(i 0).val, hN⟩ (1 : Fin 3) * 16384 ≤ (i 1).val ∧ (i 1).val < win1_1.index ⟨(i 0).val, hN⟩ (1 : Fin 3) * 16384 + 16384
    omega
  | ⟨2, _⟩ =>
    show win1_1.index ⟨(i 0).val, hN⟩ (2 : Fin 3) * 256 ≤ (i 2).val ∧ (i 2).val < win1_1.index ⟨(i 0).val, hN⟩ (2 : Fin 3) * 256 + 256
    omega

/-- After the region the result array is the expansion of the node array the region found. -/
theorem expand_array
    (hpay : ∀ (v0 : Vec Ideal S1x128x256 .f32) (u : Fin 1) (s : Fin 16384) (d : Fin 256),
      k1_pay1 (F := Ideal) v0 (ix3 u s d) = v0 (ix3 (0 : Fin 1) (pairNode s) d))
    (c : Dev nD) : (dat1 V c).arrAt 1 cfg1.N = expand (V c main_v4) :=
  (dat1 V c).arrAt_eq_of_cover 1 (expand (V c main_v4)) (fun t _ => flushed_eq V hpay c t) cover

end Cert.EdgeNorm.ExpandBlocks

end
-- ==== Proof.NormBlocks.lean ====
/-
  The first region: the normalised node rows, as one block.

  The region's grid has a single point.  Each of its eight windows is a whole array: the node features, the two
  weight matrices, the two biases and the scale and shift held as rows [1, 256], and the output [8, 128, 256].  So
  each input block is its array as the region finds it, the body's one store fills the whole output block, and
  after the region the output array is the body's function of the input arrays: the normalised node rows.
-/
import proofs.«177663_j90331752169540_1_alg».proof.Proof.Gen.KernelIdeal.Frame
import proofs.«177663_j90331752169540_1_alg».proof.Proof.Spec
import Idealize.ShloMosaic.Lib.Pipeline.Value
import Idealize.ShloMosaic.Lib.ValueIdx

set_option maxRecDepth 16384

noncomputable section

namespace Cert.EdgeNorm.NormBlocks

open Cert.KernelIdeal Cert.KernelIdeal.Gen Cert.EdgeNorm
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- At the one point every window's block index is zero on every axis. -/
theorem index_facts : ∀ t : Fin cfg0.N,
    (win0_0.index t (0 : Fin 3) = 0 ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = 0 ∧ win0_7.index t (1 : Fin 3) = 0 ∧ win0_7.index t (2 : Fin 3) = 0) :=
  (by decide +kernel : ∀ t : Fin grid0.N, _)

/-! Each input block is its whole array. -/

theorem block_x (c : Dev nD) (t : Fin cfg0.N) : (iblk0 V c 0 t : S8x128x256.Idx → EReal) = V c main_arg0 := by
  obtain ⟨⟨e0, e1, e2⟩, -⟩ := index_facts t
  funext y
  show V c main_arg0 (((cfg0.win 0).blk t).view.emb y) = V c main_arg0 y
  refine congrArg (V c main_arg0) (funext fun a => Fin.ext ?_)
  match a with
  | ⟨0, _⟩ => show win0_0.index t (0 : Fin 3) * 8 + 1 * (y 0).val = (y 0).val; omega
  | ⟨1, _⟩ => show win0_0.index t (1 : Fin 3) * 128 + 1 * (y 1).val = (y 1).val; omega
  | ⟨2, _⟩ => show win0_0.index t (2 : Fin 3) * 256 + 1 * (y 2).val = (y 2).val; omega

theorem block_Wv (c : Dev nD) (t : Fin cfg0.N) : (iblk0 V c 1 t : S256x256.Idx → EReal) = V c main_arg1 := by
  obtain ⟨-, ⟨e0, e1⟩, -⟩ := index_facts t
  funext y
  show V c main_arg1 (((cfg0.win 1).blk t).view.emb y) = V c main_arg1 y
  refine congrArg (V c main_arg1) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem block_bv (c : Dev nD) (t : Fin cfg0.N) : (iblk0 V c 2 t : S1x256.Idx → EReal) = V c main_v0 := by
  obtain ⟨-, -, ⟨e0, e1⟩, -⟩ := index_facts t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem block_We (c : Dev nD) (t : Fin cfg0.N) : (iblk0 V c 3 t : S256x256.Idx → EReal) = V c main_arg3 := by
  obtain ⟨-, -, -, ⟨e0, e1⟩, -⟩ := index_facts t
  funext y
  show V c main_arg3 (((cfg0.win 3).blk t).view.emb y) = V c main_arg3 y
  refine congrArg (V c main_arg3) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem block_be (c : Dev nD) (t : Fin cfg0.N) : (iblk0 V c 4 t : S1x256.Idx → EReal) = V c main_v1 := by
  obtain ⟨-, -, -, -, ⟨e0, e1⟩, -⟩ := index_facts t
  funext y
  show V c main_v1 (((cfg0.win 4).blk t).view.emb y) = V c main_v1 y
  refine congrArg (V c main_v1) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem block_gamma (c : Dev nD) (t : Fin cfg0.N) : (iblk0 V c 5 t : S1x256.Idx → EReal) = V c main_v2 := by
  obtain ⟨-, -, -, -, -, ⟨e0, e1⟩, -⟩ := index_facts t
  funext y
  show V c main_v2 (((cfg0.win 5).blk t).view.emb y) = V c main_v2 y
  refine congrArg (V c main_v2) (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem block_beta (c : Dev nD) (t : Fin cfg0.N) : (iblk0 V c 6 t : S1x256.Idx → EReal) = V c main_v3 := by
  obtain ⟨-, -, -, -, -, -, ⟨e0, e1⟩, -⟩ := index_facts t
  funext y
  show V c main_v3 (((cfg0.win 6).blk t).view.emb y) = V c main_v3 y
  refine congrArg (V c main_v3) (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- The normalised node rows of the arrays the region finds. -/
abbrev found (c : Dev nD) : S8x128x256.Idx → EReal :=
  normedArr (V c main_arg0) (V c main_arg1) (ofRow (V c main_v0)) (V c main_arg3) (ofRow (V c main_v1))
    (ofRow (V c main_v2)) (ofRow (V c main_v3))

/-- What the one point writes back is the whole of the normalised node rows. -/
theorem flushed_eq
    (hpay : ∀ (x0 : Vec Ideal S8x128x256 .f32) (x1 : Vec Ideal S256x256 .f32) (x2 : Vec Ideal S1x256 .f32)
      (x3 : Vec Ideal S256x256 .f32) (x4 x5 x6 : Vec Ideal S1x256 .f32) (p : Fin 8) (n : Fin 128) (d : Fin 256),
      k0_pay1 (F := Ideal) (k0_pay2 (F := Ideal) x0 x1 x2 x3 x4 x5) x6 (ix3 p n d)
        = normed x0 x1 (ofRow x2) x3 (ofRow x4) (ofRow x5) (ofRow x6) p n d)
    (c : Dev nD) (t : Fin cfg0.N) :
    (dat0 V c).flushed 7 t = ((cfg0.win 7).blk t).view.read (Elt Ideal) (found V c) := by
  show (cfg0.win 7).cut (grid0.coords t) ((dat0 V c).after 7 t) = _
  rw [after0_7]
  unfold out0_7
  rw [View.canon_unit_zero zeros3]
  simp only [View.ld_unit_zero (S := S8x128x256) zeros3, View.ld_unit_zero (S := S256x256) zeros2,
    View.ld_unit_zero (S := S1x256) zeros2]
  obtain ⟨-, -, -, -, -, -, -, ⟨e0, e1, e2⟩⟩ := index_facts t
  refine funext fun (j : S8x128x256.Idx) => ?_
  obtain ⟨p, n, d, rfl⟩ : ∃ (p : Fin 8) (n : Fin 128) (d : Fin 256), j = ix3 p n d := ⟨j 0, j 1, j 2, eq_ix3 j⟩
  show k0_pay1 (F := Ideal) (k0_pay2 (F := Ideal) (iblk0 V c 0 t) (iblk0 V c 1 t) (iblk0 V c 2 t) (iblk0 V c 3 t)
      (iblk0 V c 4 t) (iblk0 V c 5 t)) (iblk0 V c 6 t) (ix3 p n d)
    = found V c (((cfg0.win 7).blk t).view.emb (ix3 p n d))
  refine (hpay (iblk0 V c 0 t) (iblk0 V c 1 t) (iblk0 V c 2 t) (iblk0 V c 3 t) (iblk0 V c 4 t) (iblk0 V c 5 t)
    (iblk0 V c 6 t) p n d).trans ?_
  have hemb : ((cfg0.win 7).blk t).view.emb (ix3 p n d) = ix3 p n d := funext fun a => Fin.ext (by
    match a with
    | ⟨0, _⟩ => show win0_7.index t (0 : Fin 3) * 8 + 1 * p.val = p.val; omega
    | ⟨1, _⟩ => show win0_7.index t (1 : Fin 3) * 128 + 1 * n.val = n.val; omega
    | ⟨2, _⟩ => show win0_7.index t (2 : Fin 3) * 256 + 1 * d.val = d.val; omega)
  rw [hemb, block_x V c t, block_Wv V c t, block_bv V c t, block_We V c t, block_be V c t, block_gamma V c t,
    block_beta V c t]
  rfl

/-- An index of the output is in the point's block iff each coordinate is in the block's range on its axis. -/
theorem mem_blk (t : Fin cfg0.N) (i : S8x128x256.Idx) :
    i ∈ ((cfg0.win 7).blk t).view.set ↔ ∀ a : Fin 3, win0_7.index t a * S8x128x256.size a ≤ (i a).val
      ∧ (i a).val < win0_7.index t a * S8x128x256.size a + S8x128x256.size a := by
  show i ∈ ((View.whole main_v4).slice (win0_7.rect t)).set ↔ _
  rw [View.set_slice_whole, Rect.mem_set_unit]
  exact Iff.rfl

/-- The one block is the whole output. -/
theorem cover (i : S8x128x256.Idx) :
    ∃ t : Fin cfg0.N, (cfg0.win 7).flush t = true ∧ i ∈ ((cfg0.win 7).blk t).view.set := by
  have h0 : (i 0).val < 8 := (i 0).isLt
  have h1 : (i 1).val < 128 := (i 1).isLt
  have h2 : (i 2).val < 256 := (i 2).isLt
  refine ⟨t0_0, flush0_7 _, ?_⟩
  rw [mem_blk]
  obtain ⟨-, -, -, -, -, -, -, ⟨e0, e1, e2⟩⟩ := index_facts t0_0
  intro a
  match a with
  | ⟨0, _⟩ => show win0_7.index t0_0 (0 : Fin 3) * 8 ≤ (i 0).val ∧ (i 0).val < win0_7.index t0_0 (0 : Fin 3) * 8 + 8; omega
  | ⟨1, _⟩ => show win0_7.index t0_0 (1 : Fin 3) * 128 ≤ (i 1).val ∧ (i 1).val < win0_7.index t0_0 (1 : Fin 3) * 128 + 128; omega
  | ⟨2, _⟩ => show win0_7.index t0_0 (2 : Fin 3) * 256 ≤ (i 2).val ∧ (i 2).val < win0_7.index t0_0 (2 : Fin 3) * 256 + 256; omega

/-- After the region its output array holds the normalised node rows of the arrays the region found. -/
theorem norm_array
    (hpay : ∀ (x0 : Vec Ideal S8x128x256 .f32) (x1 : Vec Ideal S256x256 .f32) (x2 : Vec Ideal S1x256 .f32)
      (x3 : Vec Ideal S256x256 .f32) (x4 x5 x6 : Vec Ideal S1x256 .f32) (p : Fin 8) (n : Fin 128) (d : Fin 256),
      k0_pay1 (F := Ideal) (k0_pay2 (F := Ideal) x0 x1 x2 x3 x4 x5) x6 (ix3 p n d)
        = normed x0 x1 (ofRow x2) x3 (ofRow x4) (ofRow x5) (ofRow x6) p n d)
    (c : Dev nD) : (dat0 V c).arrAt 7 cfg0.N = found V c :=
  (dat0 V c).arrAt_eq_of_cover 7 (found V c) (fun t _ => flushed_eq V hpay c t) cover

end Cert.EdgeNorm.NormBlocks

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.HostRows.lean ====
/-
  What the first region finds in its arrays.

  Before the first region the program reshapes the two biases and the scale and shift, each a vector of 256
  entries, to rows [1, 256]; nothing else is written.  So the region finds the node features and the two weight
  matrices as launched, and each of the four rows holds its vector: read back as a vector, a vector cast to a row
  is the vector again.  Hence the normalised node rows of what the region finds are the normalised node rows of
  the seven arguments.
-/
import proofs.«177663_j90331752169540_1_alg».proof.Proof.Gen.KernelIdeal.Frame
import proofs.«177663_j90331752169540_1_alg».proof.Proof.Spec
import proofs.«177663_j90331752169540_1_alg».proof.Proof.LibRowCast
import proofs.«177663_j90331752169540_1_alg».proof.Proof.NormBlocks
import Idealize.ShloMosaic.Lib.StableHlo.Run

set_option maxRecDepth 16384

noncomputable section

namespace Cert.EdgeNorm.HostRows

open Cert.KernelIdeal Cert.KernelIdeal.Gen Cert.EdgeNorm
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! The four rows are the casts of their vectors. -/

theorem row_bv (c : Dev nD) : (V1 m ρ c main_v0 : S1x256.Idx → EReal)
    = shapeCast S1x256 (m ((c : Thread nD τ).loc main_arg2)) shapeCasts_S256_S1x256 := by
  show StableHlo.after hostOps0 (W0 m ρ c) (Proc.devRef .tc main_v0) = _
  after_results
  rfl

theorem row_be (c : Dev nD) : (V1 m ρ c main_v1 : S1x256.Idx → EReal)
    = shapeCast S1x256 (m ((c : Thread nD τ).loc main_arg4)) shapeCasts_S256_S1x256 := by
  show StableHlo.after hostOps0 (W0 m ρ c) (Proc.devRef .tc main_v1) = _
  after_results
  rfl

theorem row_gamma (c : Dev nD) : (V1 m ρ c main_v2 : S1x256.Idx → EReal)
    = shapeCast S1x256 (m ((c : Thread nD τ).loc main_arg5)) shapeCasts_S256_S1x256 := by
  show StableHlo.after hostOps0 (W0 m ρ c) (Proc.devRef .tc main_v2) = _
  after_results
  rfl

theorem row_beta (c : Dev nD) : (V1 m ρ c main_v3 : S1x256.Idx → EReal)
    = shapeCast S1x256 (m ((c : Thread nD τ).loc main_arg6)) shapeCasts_S256_S1x256 := by
  show StableHlo.after hostOps0 (W0 m ρ c) (Proc.devRef .tc main_v3) = _
  after_results
  rfl

/-! The node features and the two weight matrices are as launched. -/

theorem arr_x (c : Dev nD) : (V1 m ρ c main_arg0 : S8x128x256.Idx → EReal) = m ((c : Thread nD τ).loc main_arg0) := by
  show StableHlo.after hostOps0 (W0 m ρ c) (Proc.devRef .tc main_arg0) = _
  after_results

theorem arr_Wv (c : Dev nD) : (V1 m ρ c main_arg1 : S256x256.Idx → EReal) = m ((c : Thread nD τ).loc main_arg1) := by
  show StableHlo.after hostOps0 (W0 m ρ c) (Proc.devRef .tc main_arg1) = _
  after_results

theorem arr_We (c : Dev nD) : (V1 m ρ c main_arg3 : S256x256.Idx → EReal) = m ((c : Thread nD τ).loc main_arg3) := by
  show StableHlo.after hostOps0 (W0 m ρ c) (Proc.devRef .tc main_arg3) = _
  after_results

/-- A vector cast to a row and read back as a vector is the vector. -/
theorem ofRow_cast (v : S256.Idx → EReal) : ofRow (shapeCast S1x256 v shapeCasts_S256_S1x256) = v := by
  funext j
  obtain ⟨d, rfl⟩ : ∃ d : Fin 256, j = ix1 d := ⟨j 0, eq_ix1 j⟩
  rw [ofRow_apply]
  exact Cert.RowCast.shapeCast_row_apply v shapeCasts_S256_S1x256 (0 : Fin 1) d

/-- The normalised node rows of what the first region finds are those of the seven arguments. -/
theorem found_launch (c : Dev nD) :
    NormBlocks.found (V1 m ρ) c
      = normedArr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  show normedArr (V1 m ρ c main_arg0) (V1 m ρ c main_arg1) (ofRow (V1 m ρ c main_v0)) (V1 m ρ c main_arg3)
    (ofRow (V1 m ρ c main_v1)) (ofRow (V1 m ρ c main_v2)) (ofRow (V1 m ρ c main_v3)) = _
  rw [arr_x m ρ c, arr_Wv m ρ c, arr_We m ρ c, row_bv m ρ c, row_be m ρ c, row_gamma m ρ c, row_beta m ρ c,
    ofRow_cast, ofRow_cast, ofRow_cast, ofRow_cast]

end Cert.EdgeNorm.HostRows

end
-- ==== Proof.KernelValue.lean ====
/-
  The kernel's result as a function of its arguments.

  The result buffer ends at what the second region's eight write-backs leave, which is the expansion to pair rows
  of the array that region found in its input; that array is the first region's output, which ends at the
  normalised node rows of what the first region found; and what the first region found is the seven arguments, four
  of them held as rows.  So the result is the normalised node rows of the arguments, expanded to pair rows.
-/
import proofs.«177663_j90331752169540_1_alg».proof.Proof.Gen.KernelIdeal.Frame
import proofs.«177663_j90331752169540_1_alg».proof.Proof.Spec
import proofs.«177663_j90331752169540_1_alg».proof.Proof.KernelRun
import proofs.«177663_j90331752169540_1_alg».proof.Proof.ExpandBlocks
import proofs.«177663_j90331752169540_1_alg».proof.Proof.NormBlocks
import proofs.«177663_j90331752169540_1_alg».proof.Proof.HostRows

set_option maxRecDepth 16384

noncomputable section

namespace Cert.EdgeNorm.KernelValue

open Cert.KernelIdeal Cert.KernelIdeal.Gen Cert.EdgeNorm
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first body's arithmetic, read at an entry, is the normalised entry of its seven loaded blocks. -/
def NormBody : Prop :=
  ∀ (x0 : Vec Ideal S8x128x256 .f32) (x1 : Vec Ideal S256x256 .f32) (x2 : Vec Ideal S1x256 .f32)
    (x3 : Vec Ideal S256x256 .f32) (x4 x5 x6 : Vec Ideal S1x256 .f32) (p : Fin 8) (n : Fin 128) (d : Fin 256),
    k0_pay1 (F := Ideal) (k0_pay2 (F := Ideal) x0 x1 x2 x3 x4 x5) x6 (ix3 p n d)
      = normed x0 x1 (ofRow x2) x3 (ofRow x4) (ofRow x5) (ofRow x6) p n d

/-- The second body's arithmetic, read at an entry, is its loaded block at the entry's node. -/
def ExpandBody : Prop :=
  ∀ (v0 : Vec Ideal S1x128x256 .f32) (u : Fin 1) (s : Fin 16384) (d : Fin 256),
    k1_pay1 (F := Ideal) v0 (ix3 u s d) = v0 (ix3 (0 : Fin 1) (pairNode s) d)

/-- The second region's exit contents at the result buffer: the pair rows of the arguments. -/
theorem result_eq (hnorm : NormBody) (hexp : ExpandBody) (c : Dev nD) :
    W3 m ρ c (Proc.devRef .tc main_v5)
      = pairs (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  have h3 : W3 m ρ c (Proc.devRef .tc main_v5) = (dat1 (V2 m ρ) c).arrAt 1 cfg1.N := W3_arr m ρ c 1
  have h2 : (V2 m ρ c main_v4 : S8x128x256.Idx → EReal) = (dat0 (V1 m ρ) c).arrAt 7 cfg0.N := W2_arr m ρ c 7
  rw [h3, ExpandBlocks.expand_array (V2 m ρ) hexp c, h2, NormBlocks.norm_array (V1 m ρ) hnorm c,
    HostRows.found_launch m ρ c]
  rfl

/-- Every weakly fair execution of the kernel's program terminates without a fault, its result the pair rows of
    the arguments and its arguments as launched. -/
theorem run (hnorm : NormBody) (hexp : ExpandBody) :
    θ_run defs (onTc (τ := τ) (main (F := Ideal))) ⟨m, fun _ => 0, ρ⟩ (fun r => ∀ c : Dev nD,
      r.2.mem ((c.tc : Thread nD τ).loc main_v5)
        = pairs (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ hnorm hexp c), (h c).2⟩)
    (KernelRun.run_result (F := Ideal) m ρ)

end Cert.EdgeNorm.KernelValue

end
-- ==== Proof.LibContractLast.lean ====
/-
  A matrix product that contracts the LAST axis of both operands, read at an entry.

  For a left operand l of shape [A, K] and a right operand r of shape [B, K] (the right operand held row by row,
  not transposed), the product contracting axis 1 of each has shape [A, B], and its entry (p, q) is the sum over
  k below K of l (p, k) * r (q, k).  The product's definition sums over the index type of the contracted axes
  and reads the operands at indices assembled from the output index and the contraction index; the tactic below
  re-indexes that sum by k and identifies the two assembled indices with (p, k) and (q, k).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 q k)` for a
    dimension record `D` that contracts axis 1 of both rank-2 operands (extent `K`) and keeps axis 0 of the left
    operand and axis 0 of the right operand as the output's two axes; `SL` and `SR` are the operands' shapes. It
    expects `l`, `r`, `p`, `q` in scope under these names. -/
macro "contract_last " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = q.val := fun c => by
    unfold DotDims.rhsIdx
    rw [dif_neg (show ¬(0 : Fin ($SR).rank) ∈ ($D).rhsBatch by decide), dif_pos (show (0 : Fin ($SR).rank) ∈ ($D).rhsNonContracting by decide)]
    rfl
  have r1 : ∀ c, ((($D).rhsIdx (ValueIdx.ix2 p q) c) 1).val = (c ⟨0, by decide⟩).val := fun c =>
    ($D).rhsIdx_val_of_single rfl (ValueIdx.ix2 p q) c
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 q k := funext fun a => Fin.ext (by
    match a with
    | ⟨0, _⟩ => exact r0 _
    | ⟨1, _⟩ => exact (r1 _).trans hk)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.BodyRows.lean ====
/-
  The two linear layers of the body, read row by row.

  The body holds the node features as 1024 rows of 256 channels: row r is node r % 128 of graph r / 128. A linear
  layer multiplies every row with the rows of a [256, 256] weight matrix, summing over the 256 input channels from a
  zero accumulator, and adds a bias held as a single row to every row. Entry (r, d) of its result is therefore
      (sum over k of a (r, k) * w (d, k)) + b (0, d),
  and applied twice to the reshaped features it gives the specification's hidden and edge values at the graph and
  node of row r.
-/
import proofs.«177663_j90331752169540_1_alg».proof.Proof.Gen.KernelIdeal.Skeleton
import proofs.«177663_j90331752169540_1_alg».proof.Proof.Spec
import proofs.«177663_j90331752169540_1_alg».proof.Proof.LibContractLast
import proofs.«177663_j90331752169540_1_alg».proof.Proof.LibRowBroadcast

noncomputable section

namespace Cert.EdgeNorm.BodySide

open Cert.KernelIdeal Cert.KernelIdeal.Gen Idealize.ShloMosaic Idealize.ShloMosaic.ValueIdx

/-- The node features as 1024 rows. -/
def rows (x0 : Vec Ideal S8x128x256 .f32) : FVec Ideal S1024x256 .f32 :=
  shapeCast S1024x256 x0 shapeCasts_S8x128x256_S1024x256

/-- Row r of the reshaped features is node r % 128 of graph r / 128. -/
theorem rows_apply (x0 : Vec Ideal S8x128x256 .f32) (r : Fin 1024) (k : Fin 256) :
    rows x0 (ix2 r k) = x0 (ix3 (rowGraph r) (rowNode r) k) := by
  unfold rows
  refine shapeCast_apply x0 shapeCasts_S8x128x256_S1024x256 (ix2 r k) (ix3 (rowGraph r) (rowNode r) k) ?_
  rw [Shape.rowMajor_val_three, Shape.rowMajor_val_two]
  show ((r.val / 128) * 128 + r.val % 128) * 256 + k.val = r.val * 256 + k.val
  have := r.isLt
  omega

/-- A row held as [1, 256], added to every one of 1024 rows. -/
def rowBias (b : Vec Ideal S1x256 .f32) : FVec Ideal S1024x256 .f32 :=
  broadcastTo S1024x256 (shapeCast S1x256 b shapeCasts_S1x256_S1x256) broadcasts_S1x256_S1024x256

theorem rowBias_apply (b : Vec Ideal S1x256 .f32) (r : Fin 1024) (d : Fin 256) :
    rowBias b (ix2 r d) = b (ix2 (0 : Fin 1) d) := by
  unfold rowBias
  rw [shapeCast_self]
  exact Cert.RowBroadcast.broadcastTo_1b_ab_apply b broadcasts_S1x256_S1024x256 r d

/-- A linear layer on 1024 rows: the product with the weight rows from a zero accumulator, plus the bias row. -/
def linRows (a : FVec Ideal S1024x256 .f32) (w : Vec Ideal S256x256 .f32) (b : Vec Ideal S1x256 .f32) :
    FVec Ideal S1024x256 .f32 :=
  addf (matmul (φ₂ := .f32) dot_S1024x256_S256x256_S1024x256_1_1_0_0_n_n none a w (constant S1024x256 .f32 0x00000000#32))
    (rowBias b)

theorem linRows_apply (l : FVec Ideal S1024x256 .f32) (r : Vec Ideal S256x256 .f32) (b : Vec Ideal S1x256 .f32)
    (p : Fin 1024) (q : Fin 256) :
    linRows l r b (ix2 p q) = (∑ k : Fin 256, l (ix2 p k) * r (ix2 q k)) + b (ix2 (0 : Fin 1) q) := by
  unfold linRows
  rw [addf_apply, rowBias_apply]
  refine congrArg (· + b (ix2 (0 : Fin 1) q)) ?_
  refine (Ideal.matmul_constant_zero_apply (φ₂ := .f32) dot_S1024x256_S256x256_S1024x256_1_1_0_0_n_n none l r (ix2 p q)).trans ?_
  contract_last dot_S1024x256_S256x256_S1024x256_1_1_0_0_n_n S1024x256 S256x256 256

/-- The first layer's output on the 1024 rows. -/
def hiddenRows (x0 : Vec Ideal S8x128x256 .f32) (x1 : Vec Ideal S256x256 .f32) (x2 : Vec Ideal S1x256 .f32) :
    FVec Ideal S1024x256 .f32 :=
  linRows (rows x0) x1 x2

theorem hiddenRows_apply (x0 : Vec Ideal S8x128x256 .f32) (x1 : Vec Ideal S256x256 .f32) (x2 : Vec Ideal S1x256 .f32)
    (r : Fin 1024) (d : Fin 256) :
    hiddenRows x0 x1 x2 (ix2 r d) = hidden x0 x1 (ofRow x2) (rowGraph r) (rowNode r) d := by
  unfold hiddenRows hidden
  rw [linRows_apply, ofRow_apply]
  refine congrArg (· + x2 (ix2 (0 : Fin 1) d)) ?_
  exact Finset.sum_congr rfl fun k _ => congrArg (· * x1 (ix2 d k)) (rows_apply x0 r k)

/-- The second layer's output on the 1024 rows. -/
def edgeRows (x0 : Vec Ideal S8x128x256 .f32) (x1 : Vec Ideal S256x256 .f32) (x2 : Vec Ideal S1x256 .f32)
    (x3 : Vec Ideal S256x256 .f32) (x4 : Vec Ideal S1x256 .f32) : FVec Ideal S1024x256 .f32 :=
  linRows (hiddenRows x0 x1 x2) x3 x4

theorem edgeRows_apply (x0 : Vec Ideal S8x128x256 .f32) (x1 : Vec Ideal S256x256 .f32) (x2 : Vec Ideal S1x256 .f32)
    (x3 : Vec Ideal S256x256 .f32) (x4 : Vec Ideal S1x256 .f32) (r : Fin 1024) (d : Fin 256) :
    edgeRows x0 x1 x2 x3 x4 (ix2 r d)
      = edge x0 x1 (ofRow x2) x3 (ofRow x4) (rowGraph r) (rowNode r) d := by
  unfold edgeRows edge
  rw [linRows_apply, ofRow_apply]
  refine congrArg (· + x4 (ix2 (0 : Fin 1) d)) ?_
  exact Finset.sum_congr rfl fun k _ => congrArg (· * x3 (ix2 d k)) (hiddenRows_apply x0 x1 x2 r k)

end Cert.EdgeNorm.BodySide

end
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.BodyStats.lean ====
/-
  The per-channel statistics of the body, read entry by entry.

  The body sums each of the 256 columns of a [1024, 256] array, holds the 256 sums as a single row and divides the
  row by the word for 1024: the column's mean. Subtracting the mean row from every row centres the array; the mean
  of the squares of the centred entries is the column's variance. Read at a column these are the specification's
  mean, centred and var at that channel, once the array is the second layer's output on the 1024 rows.
-/
import proofs.«177663_j90331752169540_1_alg».proof.Proof.BodyRows
import proofs.«177663_j90331752169540_1_alg».proof.Proof.LibColSum
import proofs.«177663_j90331752169540_1_alg».proof.Proof.LibRowCast

noncomputable section

namespace Cert.EdgeNorm.BodySide

open Cert.KernelIdeal Cert.KernelIdeal.Gen Idealize.ShloMosaic Idealize.ShloMosaic.ValueIdx

/-- The mean of each column of 1024 rows, held as a single row. -/
def colMean (a : FVec Ideal S1024x256 .f32) : FVec Ideal S1x256 .f32 :=
  divf
    (shapeCast S1x256
      (multiReduction (F := Ideal) .add [0] S256 a 0x00000000#32 reduces_S1024x256_S256 (.inl rfl) rfl)
      shapeCasts_S256_S1x256)
    (broadcast S1x256 (Scalar.ofBits (F := Ideal) .f32 0x44800000#32))

theorem colMean_apply (a : FVec Ideal S1024x256 .f32) (u : Fin 1) (d : Fin 256) :
    colMean a (ix2 u d) = Ideal.div (∑ r : Fin 1024, a (ix2 r d)) count := by
  unfold colMean
  rw [divf_apply, broadcast_apply, Cert.RowCast.shapeCast_row_apply]
  exact congrArg (fun z => Ideal.div z count)
    (Cert.ColSum.multiReduction_add_col a 0x00000000#32 reduces_S1024x256_S256 (.inl rfl) rfl d)

/-- A single row repeated in every one of 1024 rows. -/
def spread (v : FVec Ideal S1x256 .f32) : FVec Ideal S1024x256 .f32 :=
  broadcastTo S1024x256 v broadcasts_S1x256_S1024x256

theorem spread_apply (v : FVec Ideal S1x256 .f32) (r : Fin 1024) (d : Fin 256) :
    spread v (ix2 r d) = v (ix2 (0 : Fin 1) d) :=
  Cert.RowBroadcast.broadcastTo_1b_ab_apply v broadcasts_S1x256_S1024x256 r d

/-- Every entry less its column's mean. -/
def centredRows (a : FVec Ideal S1024x256 .f32) : FVec Ideal S1024x256 .f32 :=
  subf a (spread (colMean a))

theorem centredRows_apply (a : FVec Ideal S1024x256 .f32) (r : Fin 1024) (d : Fin 256) :
    centredRows a (ix2 r d) = a (ix2 r d) - Ideal.div (∑ r' : Fin 1024, a (ix2 r' d)) count := by
  unfold centredRows
  rw [subf_apply, spread_apply, colMean_apply]

/-- The mean square of each column's centred entries, held as a single row. -/
def colVar (a : FVec Ideal S1024x256 .f32) : FVec Ideal S1x256 .f32 :=
  colMean (mulf (centredRows a) (centredRows a))

theorem colVar_apply (a : FVec Ideal S1024x256 .f32) (u : Fin 1) (d : Fin 256) :
    colVar a (ix2 u d)
      = Ideal.div (∑ r : Fin 1024, centredRows a (ix2 r d) * centredRows a (ix2 r d)) count := by
  unfold colVar
  rw [colMean_apply]
  rfl

section
variable (x0 : Vec Ideal S8x128x256 .f32) (x1 : Vec Ideal S256x256 .f32) (x2 : Vec Ideal S1x256 .f32)
  (x3 : Vec Ideal S256x256 .f32) (x4 : Vec Ideal S1x256 .f32)

/-- The mean row of the second layer's output is the specification's mean. -/
theorem mean_row (u : Fin 1) (d : Fin 256) :
    colMean (edgeRows x0 x1 x2 x3 x4) (ix2 u d) = mean x0 x1 (ofRow x2) x3 (ofRow x4) d := by
  unfold mean
  rw [colMean_apply]
  exact congrArg (fun f => Ideal.div (Finset.sum (Finset.univ : Finset (Fin 1024)) f) count)
    (funext fun r => edgeRows_apply x0 x1 x2 x3 x4 r d)

/-- The centred rows of the second layer's output are the specification's centred entries. -/
theorem centred_rows (r : Fin 1024) (d : Fin 256) :
    centredRows (edgeRows x0 x1 x2 x3 x4) (ix2 r d)
      = centred x0 x1 (ofRow x2) x3 (ofRow x4) (rowGraph r) (rowNode r) d := by
  unfold centredRows centred
  rw [subf_apply, spread_apply, mean_row, edgeRows_apply]

/-- The variance row of the second layer's output is the specification's var. -/
theorem var_row (u : Fin 1) (d : Fin 256) :
    colVar (edgeRows x0 x1 x2 x3 x4) (ix2 u d) = var x0 x1 (ofRow x2) x3 (ofRow x4) d := by
  unfold var
  rw [colVar_apply]
  exact congrArg (fun f => Ideal.div (Finset.sum (Finset.univ : Finset (Fin 1024)) f) count)
    (funext fun r => by rw [centred_rows])

end

end Cert.EdgeNorm.BodySide

end
-- ==== Proof.BodyNorm.lean ====
/-
  The normalisation body, read entry by entry.

  On the 1024 rows of the second layer's output the body subtracts each column's mean, multiplies by the reciprocal
  square root of the column's variance plus a floor, scales by a per-channel row and shifts by another, and stores
  the rows back as 8 graphs of 128 nodes: row p * 128 + n is node n of graph p. Entry (p, n, d) of what it stores is
  therefore the specification's normed value at (p, n, d).
-/
import proofs.«177663_j90331752169540_1_alg».proof.Proof.BodyStats

noncomputable section

namespace Cert.EdgeNorm.BodySide

open Cert.KernelIdeal Cert.KernelIdeal.Gen Idealize.ShloMosaic Idealize.ShloMosaic.ValueIdx

/-- The centred rows times the reciprocal square root of the floored column variance, times a per-channel row. -/
def normRows (a : FVec Ideal S1024x256 .f32) (g : Vec Ideal S1x256 .f32) : FVec Ideal S1024x256 .f32 :=
  mulf
    (mulf (centredRows a)
      (spread (rsqrt (addf (colVar a) (broadcast S1x256 (Scalar.ofBits (F := Ideal) .f32 0x3727C5AC#32))))))
    (rowBias g)

theorem normRows_apply (a : FVec Ideal S1024x256 .f32) (g : Vec Ideal S1x256 .f32) (r : Fin 1024) (d : Fin 256) :
    normRows a g (ix2 r d)
      = centredRows a (ix2 r d) * Ideal.rsqrt (colVar a (ix2 (0 : Fin 1) d) + eps) * g (ix2 (0 : Fin 1) d) := by
  unfold normRows
  rw [mulf_apply, mulf_apply, spread_apply, rowBias_apply]
  rfl

/-- The body's first payload is the scaled normalised rows of the second layer's output. -/
theorem pay2_eq (x0 : Vec Ideal S8x128x256 .f32) (x1 : Vec Ideal S256x256 .f32) (x2 : Vec Ideal S1x256 .f32)
    (x3 : Vec Ideal S256x256 .f32) (x4 x5 : Vec Ideal S1x256 .f32) :
    k0_pay2 (F := Ideal) x0 x1 x2 x3 x4 x5 = normRows (edgeRows x0 x1 x2 x3 x4) x5 := rfl

/-- The body's stored payload is the shifted rows, held as 8 graphs of 128 nodes. -/
theorem pay1_eq (v : FVec Ideal S1024x256 .f32) (x6 : Vec Ideal S1x256 .f32) :
    k0_pay1 (F := Ideal) v x6 = shapeCast S8x128x256 (addf v (rowBias x6)) shapeCasts_S1024x256_S8x128x256 := rfl

/-- The row of node n of graph p. -/
def rowOf (p : Fin 8) (n : Fin 128) : Fin 1024 := ⟨p.val * 128 + n.val, by have := p.isLt; have := n.isLt; omega⟩

theorem rowGraph_rowOf (p : Fin 8) (n : Fin 128) : rowGraph (rowOf p n) = p :=
  Fin.ext (by show (p.val * 128 + n.val) / 128 = p.val; have := n.isLt; omega)

theorem rowNode_rowOf (p : Fin 8) (n : Fin 128) : rowNode (rowOf p n) = n :=
  Fin.ext (by show (p.val * 128 + n.val) % 128 = n.val; have := n.isLt; omega)

theorem norm_payload_apply
    (x0 : Vec Ideal S8x128x256 .f32) (x1 : Vec Ideal S256x256 .f32) (x2 : Vec Ideal S1x256 .f32) (x3 : Vec Ideal S256x256 .f32)
    (x4 x5 x6 : Vec Ideal S1x256 .f32) (p : Fin 8) (n : Fin 128) (d : Fin 256) :
    k0_pay1 (F := Ideal) (k0_pay2 (F := Ideal) x0 x1 x2 x3 x4 x5) x6 (ix3 p n d)
      = Cert.EdgeNorm.normed x0 x1 (Cert.EdgeNorm.ofRow x2) x3 (Cert.EdgeNorm.ofRow x4) (Cert.EdgeNorm.ofRow x5) (Cert.EdgeNorm.ofRow x6) p n d := by
  rw [pay2_eq, pay1_eq]
  refine (shapeCast_apply _ shapeCasts_S1024x256_S8x128x256 (ix3 p n d) (ix2 (rowOf p n) d) ?_).trans ?_
  · rw [Shape.rowMajor_val_two, Shape.rowMajor_val_three]
    rfl
  rw [addf_apply, rowBias_apply, normRows_apply, centred_rows, var_row, rowGraph_rowOf, rowNode_rowOf]
  rfl

end Cert.EdgeNorm.BodySide

end
-- ==== Proof.BodyExpand.lean ====
/-
  The expansion body: one node row copied to each of its 128 partners.

  The body takes a block of 128 node rows, [1, 128, 256], drops the leading unit axis, inserts a unit axis after the
  node axis, repeats each node's row 128 times along it, and flattens node and partner into one axis of 16384 rows
  under a leading unit axis again. Row s of the result is therefore the row of node s / 128: every step keeps the
  row-major position except the repetition, which forgets the partner s % 128.
-/
import proofs.«177663_j90331752169540_1_alg».proof.Proof.Gen.KernelIdeal.Skeleton
import proofs.«177663_j90331752169540_1_alg».proof.Proof.Spec
import Idealize.ShloMosaic.Lib.Pipeline.Value
import Idealize.ShloMosaic.Lib.ValueIdx

noncomputable section

namespace Cert.EdgeNorm.BodySide

open Cert.KernelIdeal Cert.KernelIdeal.Gen Idealize.ShloMosaic Idealize.ShloMosaic.ValueIdx

/-- The partner of pair row s. -/
def pairPartner (s : Fin 16384) : Fin 128 := ⟨s.val % 128, Nat.mod_lt _ (by decide)⟩

theorem expand_payload_apply
    (v0 : Vec Ideal S1x128x256 .f32) (u : Fin 1) (s : Fin 16384) (d : Fin 256) :
    k1_pay1 (F := Ideal) v0 (ix3 u s d) = v0 (ix3 (0 : Fin 1) (Cert.EdgeNorm.pairNode s) d) := by
  unfold k1_pay1
  have hu : u.val = 0 := by have := u.isLt; omega
  have hs := s.isLt
  refine (shapeCast_apply _ shapeCasts_S16384x256_S1x16384x256 (ix3 u s d) (ix2 s d) ?_).trans ?_
  · rw [Shape.rowMajor_val_two, Shape.rowMajor_val_three]
    show s.val * 256 + d.val = (u.val * 16384 + s.val) * 256 + d.val
    omega
  refine (shapeCast_apply _ shapeCasts_S128x128x256_S16384x256 (ix2 s d) (ix3 (pairNode s) (pairPartner s) d) ?_).trans ?_
  · rw [Shape.rowMajor_val_three, Shape.rowMajor_val_two]
    show ((s.val / 128) * 128 + s.val % 128) * 256 + d.val = s.val * 256 + d.val
    omega
  refine (broadcastTo_apply _ broadcasts_S128x1x256_S128x128x256 (ix3 (pairNode s) (pairPartner s) d)
    (ix3 (pairNode s) (0 : Fin 1) d) fun ax => ?_).trans ?_
  · match ax with
    | ⟨0, _⟩ => rfl
    | ⟨1, _⟩ => rfl
    | ⟨2, _⟩ => rfl
  rw [shapeCast_self]
  refine (shapeCast_apply _ shapeCasts_S128x256_S128x1x256 (ix3 (pairNode s) (0 : Fin 1) d) (ix2 (pairNode s) d) ?_).trans ?_
  · rw [Shape.rowMajor_val_two, Shape.rowMajor_val_three]
    show (s.val / 128) * 256 + d.val = ((s.val / 128) * 1 + 0) * 256 + d.val
    omega
  refine shapeCast_apply _ shapeCasts_S1x128x256_S128x256 (ix2 (pairNode s) d) (ix3 (0 : Fin 1) (pairNode s) d) ?_
  rw [Shape.rowMajor_val_three, Shape.rowMajor_val_two]
  show (0 * 128 + s.val / 128) * 256 + d.val = (s.val / 128) * 256 + d.val
  omega

end Cert.EdgeNorm.BodySide

end
-- ==== Proof.RefSum.lean ====
/-
  A sum over the two leading axes of an [8, 128, 256] array, channel by channel.

  The sum, over all indices (p, n, c) whose last coordinate c is the channel d, of f (p, n, c) is the sum over the
  1024 rows r of f (r / 128, r % 128, d): the pair (p, n) and the row number p * 128 + n determine each other.
-/
import Idealize.ShloMosaic.PureOps.Ideal
import Idealize.ShloMosaic.PureOps.Reduce
import Idealize.ShloMosaic.Lib.ValueIdx
import proofs.«177663_j90331752169540_1_alg».proof.Proof.Spec

noncomputable section

namespace Cert.EdgeNorm.RefSide

open Idealize.ShloMosaic Idealize.ShloMosaic.ValueIdx Cert.EdgeNorm

/-- Dropping the two leading coordinates of an index leaves its channel. -/
theorem drop_val (h : Feat.ReducesTo [0, 1] Chan) (i : Feat.Idx) : (h.drop i 0 : Nat) = (i 2).val :=
  Shape.ReducesTo.drop_apply_val_of_eq h i 0 2

/-- The row number of the node (p, n). -/
def rowOf (i : Feat.Idx) : Fin 1024 :=
  ⟨(i 0).val * 128 + (i 1).val, by
    have h0 : (i 0).val < 8 := (i 0).isLt
    have h1 : (i 1).val < 128 := (i 1).isLt
    omega⟩

/-- The sum over the two leading axes with an initial value, read at channel d: the initial value plus the sum over
    the 1024 rows. -/
theorem hostSum_rows (h : Feat.ReducesTo [0, 1] Chan) (f : Feat.Idx → EReal) (init : EReal) (d : Fin 256) :
    Ideal.hostReduceAdd h f init (ix1 d) = init + ∑ r : Fin 1024, f (ix3 (rowGraph r) (rowNode r) d) := by
  unfold Ideal.hostReduceAdd
  congr 1
  refine Finset.sum_nbij' rowOf (fun r => ix3 (rowGraph r) (rowNode r) d) ?_ ?_ ?_ ?_ ?_
  · intro i _
    exact Finset.mem_univ _
  · intro r _
    refine Finset.mem_filter.mpr ⟨Finset.mem_univ _, ?_⟩
    funext b
    match b with
    | ⟨0, _⟩ => exact Fin.ext (drop_val h _)
  · intro i hi
    have hd : (i 2).val = d.val := by
      have e := congrFun (Finset.mem_filter.mp hi).2 0
      exact (drop_val h i).symm.trans (congrArg Fin.val e)
    have h0 : (i 0).val < 8 := (i 0).isLt
    have h1 : (i 1).val < 128 := (i 1).isLt
    funext a
    match a with
    | ⟨0, _⟩ => exact Fin.ext (by show ((i 0).val * 128 + (i 1).val) / 128 = (i 0).val; omega)
    | ⟨1, _⟩ => exact Fin.ext (by show ((i 0).val * 128 + (i 1).val) % 128 = (i 1).val; omega)
    | ⟨2, _⟩ => exact Fin.ext hd.symm
  · intro r _
    have hr : r.val < 1024 := r.isLt
    exact Fin.ext (by show r.val / 128 * 128 + r.val % 128 = r.val; omega)
  · intro i hi
    have hd : (i 2).val = d.val := by
      have e := congrFun (Finset.mem_filter.mp hi).2 0
      exact (drop_val h i).symm.trans (congrArg Fin.val e)
    have h0 : (i 0).val < 8 := (i 0).isLt
    have h1 : (i 1).val < 128 := (i 1).isLt
    refine congrArg f ?_
    funext a
    match a with
    | ⟨0, _⟩ => exact Fin.ext (by show (i 0).val = ((i 0).val * 128 + (i 1).val) / 128; omega)
    | ⟨1, _⟩ => exact Fin.ext (by show (i 1).val = ((i 0).val * 128 + (i 1).val) % 128; omega)
    | ⟨2, _⟩ => exact Fin.ext hd

end Cert.EdgeNorm.RefSide

end
-- ==== Proof.RefEdge.lean ====
/-
  The reference's two linear layers, entry by entry.

  A per-channel vector spread over all nodes reads, at node (p, n) and channel d, its entry d.  A contraction of
  the node features with a weight matrix reads, at (p, n, d), the sum over k of the features at (p, n, k) times the
  weights at (d, k).  So the first layer's output is the specification's hidden and the second's is its edge.
-/
import proofs.«177663_j90331752169540_1_alg».proof.Proof.Gen.ReferenceIdeal.Read
import proofs.«177663_j90331752169540_1_alg».proof.Proof.Spec

noncomputable section

namespace Cert.EdgeNorm.RefSide

open Idealize.ShloMosaic Idealize.ShloMosaic.ValueIdx Cert.EdgeNorm
open Cert.ReferenceIdeal Cert.ReferenceIdeal.Gen Cert.ReferenceIdeal.Read

/-- A vector of 256 channels spread to [1, 1, 256] and then to [8, 128, 256] reads its entry d at (p, n, d). -/
theorem chan_read (b : (⟨S256, .f32⟩ : BufTy).Contents (Elt Ideal)) (p : Fin 8) (n : Fin 128) (d : Fin 256) :
    val_main_v2 (F := Ideal) b (ix3 p n d) = b (ix1 d) := by
  refine (val_main_v2_apply b _).trans ((val_main_v1_apply b _).trans (congrArg b ?_))
  funext a
  match a with
  | ⟨0, _⟩ => rfl

/-- The left operand of either contraction at (p, n, d) and position k is read at (p, n, k). -/
theorem lidx_eq (p : Fin 8) (n : Fin 128) (d k : Fin 256) : lidx_main_v0 (ix3 p n d) k = ix3 p n k := by
  funext a
  match a with
  | ⟨0, _⟩ => rfl
  | ⟨1, _⟩ => rfl
  | ⟨2, _⟩ => rfl

/-- The right operand is read at (d, k). -/
theorem ridx_eq (p : Fin 8) (n : Fin 128) (d k : Fin 256) : ridx_main_v0 (ix3 p n d) k = ix2 d k := by
  funext a
  match a with
  | ⟨0, _⟩ => rfl
  | ⟨1, _⟩ => rfl

section
variable (x0 : (⟨S8x128x256, .f32⟩ : BufTy).Contents (Elt Ideal)) (x1 : (⟨S256x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal))

/-- The first layer: the contraction with the first weight matrix plus the first bias. -/
theorem hidden_stage (p : Fin 8) (n : Fin 128) (d : Fin 256) :
    val_main_v3 (F := Ideal) x0 x1 x2 (ix3 p n d) = hidden x0 x1 x2 p n d := by
  show val_main_v0 (F := Ideal) x0 x1 (ix3 p n d) + val_main_v2 (F := Ideal) x2 (ix3 p n d) = _
  rw [val_main_v0_apply, chan_read]
  unfold hidden
  congr 1
  refine Finset.sum_congr rfl fun k _ => ?_
  rw [lidx_eq, ridx_eq]

/-- The second layer, on the first one's output: the specification's edge. -/
theorem edge_stage (p : Fin 8) (n : Fin 128) (d : Fin 256) :
    val_main_v7 (F := Ideal) x0 x1 x2 x3 x4 (ix3 p n d) = edge x0 x1 x2 x3 x4 p n d := by
  show val_main_v4 (F := Ideal) x0 x1 x2 x3 (ix3 p n d) + val_main_v2 (F := Ideal) x4 (ix3 p n d) = _
  rw [val_main_v4_apply, chan_read]
  unfold edge
  congr 1
  refine Finset.sum_congr rfl fun k _ => ?_
  show val_main_v3 (F := Ideal) x0 x1 x2 (lidx_main_v0 (ix3 p n d) k) * x3 (ridx_main_v0 (ix3 p n d) k) = _
  rw [lidx_eq, ridx_eq, hidden_stage]

end

end Cert.EdgeNorm.RefSide

end
-- ==== Proof.RefStats.lean ====
/-
  The reference's per-channel statistics.

  The sum of the second layer's output over both leading axes, started from zero and divided by the count word, is
  the specification's mean; the same sum of the squared differences from the mean is its variance.
-/
import proofs.«177663_j90331752169540_1_alg».proof.Proof.RefSum
import proofs.«177663_j90331752169540_1_alg».proof.Proof.RefEdge
import Idealize.ShloMosaic.PureOps.Ideal.Laws

noncomputable section

namespace Cert.EdgeNorm.RefSide

open Idealize.ShloMosaic Idealize.ShloMosaic.ValueIdx Cert.EdgeNorm
open Cert.ReferenceIdeal Cert.ReferenceIdeal.Gen Cert.ReferenceIdeal.Read

section
variable (x0 : (⟨S8x128x256, .f32⟩ : BufTy).Contents (Elt Ideal)) (x1 : (⟨S256x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal))

/-- The sum of the second layer's output over all rows, channel d. -/
theorem edge_sum (d : Fin 256) :
    val_main_v8 (F := Ideal) x0 x1 x2 x3 x4 (ix1 d)
      = ∑ r : Fin 1024, edge x0 x1 x2 x3 x4 (rowGraph r) (rowNode r) d := by
  refine (hostSum_rows reducesTo_S8x128x256_S256_d0_1 (val_main_v7 (F := Ideal) x0 x1 x2 x3 x4)
    (Ideal.ofBits .f32 0x00000000#32) d).trans ?_
  rw [Ideal.ofBits_zero_f32, zero_add]
  exact Finset.sum_congr rfl fun r _ => edge_stage x0 x1 x2 x3 x4 _ _ d

/-- The count spread over the channels reads the count word. -/
theorem count_read (d : Fin 256) : val_main_v9 (F := Ideal) (ix1 d) = count :=
  val_main_v9_apply _

/-- The mean of channel d. -/
theorem mean_stage (d : Fin 256) :
    val_main_v10 (F := Ideal) x0 x1 x2 x3 x4 (ix1 d) = mean x0 x1 x2 x3 x4 d := by
  show Ideal.div (val_main_v8 (F := Ideal) x0 x1 x2 x3 x4 (ix1 d)) (val_main_v9 (F := Ideal) (ix1 d)) = _
  rw [edge_sum, count_read]
  rfl

/-- The mean spread over all nodes reads, at (p, n, d), the mean of channel d. -/
theorem mean_read (p : Fin 8) (n : Fin 128) (d : Fin 256) :
    val_main_v12 (F := Ideal) x0 x1 x2 x3 x4 (ix3 p n d) = mean x0 x1 x2 x3 x4 d :=
  (chan_read (val_main_v10 (F := Ideal) x0 x1 x2 x3 x4) p n d).trans (mean_stage x0 x1 x2 x3 x4 d)

/-- An entry less its channel's mean. -/
theorem centred_stage (p : Fin 8) (n : Fin 128) (d : Fin 256) :
    val_main_v13 (F := Ideal) x0 x1 x2 x3 x4 (ix3 p n d) = centred x0 x1 x2 x3 x4 p n d := by
  show val_main_v7 (F := Ideal) x0 x1 x2 x3 x4 (ix3 p n d) - val_main_v12 (F := Ideal) x0 x1 x2 x3 x4 (ix3 p n d) = _
  rw [edge_stage, mean_read]
  rfl

/-- The sum of the squared centred entries over all rows, channel d. -/
theorem square_sum (d : Fin 256) :
    val_main_v15 (F := Ideal) x0 x1 x2 x3 x4 (ix1 d)
      = ∑ r : Fin 1024, centred x0 x1 x2 x3 x4 (rowGraph r) (rowNode r) d * centred x0 x1 x2 x3 x4 (rowGraph r) (rowNode r) d := by
  refine (hostSum_rows reducesTo_S8x128x256_S256_d0_1 (val_main_v14 (F := Ideal) x0 x1 x2 x3 x4)
    (Ideal.ofBits .f32 0x00000000#32) d).trans ?_
  rw [Ideal.ofBits_zero_f32, zero_add]
  refine Finset.sum_congr rfl fun r _ => ?_
  show val_main_v13 (F := Ideal) x0 x1 x2 x3 x4 (ix3 (rowGraph r) (rowNode r) d)
    * val_main_v13 (F := Ideal) x0 x1 x2 x3 x4 (ix3 (rowGraph r) (rowNode r) d) = _
  rw [centred_stage]

/-- The variance of channel d. -/
theorem var_stage (d : Fin 256) :
    val_main_v17 (F := Ideal) x0 x1 x2 x3 x4 (ix1 d) = var x0 x1 x2 x3 x4 d := by
  show Ideal.div (val_main_v15 (F := Ideal) x0 x1 x2 x3 x4 (ix1 d)) (val_main_v9 (F := Ideal) (ix1 d)) = _
  rw [square_sum, count_read]
  rfl

end

end Cert.EdgeNorm.RefSide

end
-- ==== Proof.RefNormed.lean ====
/-
  The reference's normalised node features, entry by entry.

  At node (p, n) and channel d the reference takes the entry less the channel's mean, times the reciprocal square
  root of the channel's variance plus the floor word, times the scale's entry d, plus the shift's entry d: the
  specification's normed.
-/
import proofs.«177663_j90331752169540_1_alg».proof.Proof.RefStats

noncomputable section

namespace Cert.EdgeNorm.RefSide

open Idealize.ShloMosaic Idealize.ShloMosaic.ValueIdx Cert.EdgeNorm
open Cert.ReferenceIdeal Cert.ReferenceIdeal.Gen Cert.ReferenceIdeal.Read

section
variable (x0 : (⟨S8x128x256, .f32⟩ : BufTy).Contents (Elt Ideal)) (x1 : (⟨S256x256, .f32⟩ : BufTy).Contents (Elt Ideal))
  (x2 : (⟨S256, .f32⟩ : BufTy).Contents (Elt Ideal)) (x3 : (⟨S256x256, .f32⟩ : BufTy).Contents (Elt Ideal))
  (x4 x5 x6 : (⟨S256, .f32⟩ : BufTy).Contents (Elt Ideal))

/-- The floor spread over the channels reads the floor word. -/
theorem eps_read (d : Fin 256) : val_main_v21 (F := Ideal) (ix1 d) = eps :=
  val_main_v21_apply _

/-- The reciprocal square root of the variance plus the floor, channel d. -/
theorem scale_stage (d : Fin 256) :
    val_main_v23 (F := Ideal) x0 x1 x2 x3 x4 (ix1 d) = Ideal.rsqrt (var x0 x1 x2 x3 x4 d + eps) := by
  show Ideal.rsqrt (val_main_v17 (F := Ideal) x0 x1 x2 x3 x4 (ix1 d) + val_main_v21 (F := Ideal) (ix1 d)) = _
  rw [var_stage, eps_read]

/-- The second difference from the mean is again the centred entry. -/
theorem centred_stage' (p : Fin 8) (n : Fin 128) (d : Fin 256) :
    val_main_v20 (F := Ideal) x0 x1 x2 x3 x4 (ix3 p n d) = centred x0 x1 x2 x3 x4 p n d :=
  centred_stage x0 x1 x2 x3 x4 p n d

/-- The normalised entry before scale and shift. -/
theorem unit_stage (p : Fin 8) (n : Fin 128) (d : Fin 256) :
    val_main_v26 (F := Ideal) x0 x1 x2 x3 x4 (ix3 p n d)
      = centred x0 x1 x2 x3 x4 p n d * Ideal.rsqrt (var x0 x1 x2 x3 x4 d + eps) := by
  show val_main_v20 (F := Ideal) x0 x1 x2 x3 x4 (ix3 p n d)
    * val_main_v2 (F := Ideal) (val_main_v23 (F := Ideal) x0 x1 x2 x3 x4) (ix3 p n d) = _
  rw [centred_stage', chan_read, scale_stage]

/-- The normalised entry, scaled and shifted: the specification's normed. -/
theorem normed_stage (p : Fin 8) (n : Fin 128) (d : Fin 256) :
    val_main_v32 (F := Ideal) x0 x1 x2 x3 x4 x5 x6 (ix3 p n d) = normed x0 x1 x2 x3 x4 x5 x6 p n d := by
  show val_main_v26 (F := Ideal) x0 x1 x2 x3 x4 (ix3 p n d) * val_main_v2 (F := Ideal) x5 (ix3 p n d)
    + val_main_v2 (F := Ideal) x6 (ix3 p n d) = _
  rw [unit_stage, chan_read, chan_read]
  rfl

end

end Cert.EdgeNorm.RefSide

end
-- ==== Proof.RefPairs.lean ====
/-
  The reference computes the specification's pairs.

  The last three operations copy the normalised node rows: first to [8, 128, 1, 256], then along the new axis to
  [8, 128, 128, 256], then flattened to [8, 16384, 256].  Entry (p, s, d) of the result sits at row-major position
  (p * 16384 + s) * 256 + d, which in the four-axis array is (p, s / 128, s % 128, d); the copies read it back at node
  (p, s / 128) and channel d.
-/
import proofs.«177663_j90331752169540_1_alg».proof.Proof.RefNormed

noncomputable section

namespace Cert.EdgeNorm.RefSide

open Idealize.ShloMosaic Idealize.ShloMosaic.ValueIdx Cert.EdgeNorm
open Cert.ReferenceIdeal Cert.ReferenceIdeal.Gen Cert.ReferenceIdeal.Read

/-- Through the flattening and the two copies, entry (p, s, d) is read at node (p, s / 128), channel d. -/
theorem layout_idx (p : Fin 8) (s : Fin 16384) (d : Fin 256) :
    idx_main_v33 (idx_main_v34 (idx_main_v35 (ix3 p s d))) = ix3 p (pairNode s) d := by
  have hp : p.val < 8 := p.isLt
  have hs : s.val < 16384 := s.isLt
  have hd : d.val < 256 := d.isLt
  funext a
  match a with
  | ⟨0, _⟩ => exact Fin.ext (by show ((p.val * 16384 + s.val) * 256 + d.val) / 4194304 = p.val; omega)
  | ⟨1, _⟩ => exact Fin.ext (by show ((p.val * 16384 + s.val) * 256 + d.val) / 32768 % 128 = s.val / 128; omega)
  | ⟨2, _⟩ => exact Fin.ext (by show ((p.val * 16384 + s.val) * 256 + d.val) % 256 = d.val; omega)

section
variable (x0 : (⟨S8x128x256, .f32⟩ : BufTy).Contents (Elt Ideal)) (x1 : (⟨S256x256, .f32⟩ : BufTy).Contents (Elt Ideal))
  (x2 : (⟨S256, .f32⟩ : BufTy).Contents (Elt Ideal)) (x3 : (⟨S256x256, .f32⟩ : BufTy).Contents (Elt Ideal))
  (x4 x5 x6 : (⟨S256, .f32⟩ : BufTy).Contents (Elt Ideal))

/-- The reference's result at (p, s, d) is the normalised entry of node (p, s / 128), channel d. -/
theorem pairs_stage (p : Fin 8) (s : Fin 16384) (d : Fin 256) :
    val_main_v35 (F := Ideal) x0 x1 x2 x3 x4 x5 x6 (ix3 p s d) = normed x0 x1 x2 x3 x4 x5 x6 p (pairNode s) d := by
  rw [val_main_v35_apply, val_main_v34_apply, val_main_v33_apply, layout_idx, normed_stage]

/-- The reference's result is the specification's pairs. -/
theorem reference_is_pairs :
    Cert.ReferenceIdeal.Read.val_main_v35 (F := Ideal) x0 x1 x2 x3 x4 x5 x6 = Cert.EdgeNorm.pairs x0 x1 x2 x3 x4 x5 x6 := by
  funext i
  obtain ⟨p, s, d, rfl⟩ : ∃ (p : Fin 8) (s : Fin 16384) (d : Fin 256), i = ix3 p s d := ⟨i 0, i 1, i 2, eq_ix3 i⟩
  exact pairs_stage x0 x1 x2 x3 x4 x5 x6 p s d

end

end Cert.EdgeNorm.RefSide

end
-- ==== Proof.lean ====
/-
  The kernel's program and its reference compute one function of the seven arguments, entry by entry on the
  extended reals: two linear layers on the node features, a normalisation of every channel over all 1024
  (graph, node) rows, and one copy of each node's normalised row for each of its 128 partners (Proof/Spec.lean
  states it).

  The kernel does this in two pipelined regions.  The first, at its single grid point, holds every array whole: it
  flattens the node features to 1024 rows, multiplies by the two weight matrices (contracting the channel axis of
  both operands) and adds the biases, sums each channel over the rows and divides by 1024, centres, squares, sums
  and divides again, and scales by the reciprocal square root, the scale and the shift; its output array ends at
  the normalised node rows (Proof/NormBlocks.lean, over the body's arithmetic read entry by entry in
  Proof/BodyRows.lean, BodyStats.lean and BodyNorm.lean).  The second has one point per graph and fills that
  graph's 16384 pair rows with copies of its 128 node rows (Proof/ExpandBlocks.lean, over Proof/BodyExpand.lean).
  Between the launch and the first region the biases, the scale and the shift are only recast as rows
  (Proof/HostRows.lean), and the result buffer ends at the second region's exit contents (Proof/KernelRun.lean,
  Proof/KernelValue.lean).

  The reference does the same arithmetic on the host, summing over the graph and node axes at once where the
  kernel sums over the flattened rows: both sums run over the same 1024 entries (Proof/RefSum.lean), and every other
  operation is the same on both sides (Proof/RefEdge.lean to Proof/RefPairs.lean, over the generated stage-by-stage
  reading of the reference).  No law of the extended reals beyond re-indexing a finite sum is used, so the
  finiteness of the inputs is never needed.

  The three frames: each of the kernel's two programs runs without a fault and leaves its arguments unchanged (the
  generated frames), and so does the reference (its generated run, the result dropped).  The idealisation rewrote
  no operation, so the fourth claim has nothing to state.
-/
import proofs.«177663_j90331752169540_1_alg».proof.Defs
import proofs.«177663_j90331752169540_1_alg».proof.Proof.Gen.Kernel
import proofs.«177663_j90331752169540_1_alg».proof.Proof.Gen.Kernel.Frame
import proofs.«177663_j90331752169540_1_alg».proof.Proof.Gen.KernelIdeal
import proofs.«177663_j90331752169540_1_alg».proof.Proof.Gen.KernelIdeal.Frame
import proofs.«177663_j90331752169540_1_alg».proof.Proof.Gen.ReferenceIdeal
import proofs.«177663_j90331752169540_1_alg».proof.Proof.Gen.Pre_finite_inputs
import proofs.«177663_j90331752169540_1_alg».proof.Proof.Gen.ReferenceIdeal.Run
import proofs.«177663_j90331752169540_1_alg».proof.Proof.Gen.ReferenceIdeal.Read
import proofs.«177663_j90331752169540_1_alg».proof.Proof.KernelValue
import proofs.«177663_j90331752169540_1_alg».proof.Proof.BodyNorm
import proofs.«177663_j90331752169540_1_alg».proof.Proof.BodyExpand
import proofs.«177663_j90331752169540_1_alg».proof.Proof.RefPairs
import Idealize.ShloMosaic.Adequacy
import Idealize.ShloMosaic.Init

noncomputable section

namespace Cert.Proof

open Idealize.ShloMosaic Idealize.ShloMosaic.TcCoe Idealize.SL.Sem

/-- The kernel's program as printed runs and keeps its arguments. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- On the extended reals the kernel's result buffer ends at the pair rows of its arguments (the two regions read
    block by block) and the reference's at the same function of arguments that agree (its stages read one at a
    time). -/
theorem algebraic : Cert.algebraic_KernelIdeal_ReferenceIdeal := by
  intro m ρ m' ρ' _ hagree
  refine ⟨_, Cert.EdgeNorm.KernelValue.run m ρ Cert.EdgeNorm.BodySide.norm_payload_apply
    Cert.EdgeNorm.BodySide.expand_payload_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.EdgeNorm.RefSide.reference_is_pairs,
    (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
